-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S256 : Shape := ⟨1, ![256]⟩
abbrev S16777216 : Shape := ⟨1, ![16777216]⟩
abbrev S4096 : Shape := ⟨1, ![4096]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S256 : S_.BroadcastsInDim S256 (![] : Fin 0 → Fin S256.rank)
  reducesTo_S256_S_d0 : S256.ReducesTo [0] S_
  bcast_S_S4096 : S_.BroadcastsInDim S4096 (![] : Fin 0 → Fin S4096.rank)
  reducesTo_S4096_S_d0 : S4096.ReducesTo [0] S_

variable [Facts]

def fn_part1 {F : FTy → Type} [FloatOps F] (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  main_v18

def fn {F : FTy → Type} [FloatOps F] (main_arg0 : FVec F S4x2048x4096 .f32) (main_arg1 : FVec F S256 .f32) (main_arg2 : IVec S16777216 32) (main_arg3 : FVec F S4096 .f32) (main_arg4 : FVec F S4096 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S256 .f32 := Host.absf main_arg1
  let main_cst_0 : FVec F S_ .f32 := constant S_ .f32 0x7F800000#32
  let main_v5 : FVec F S256 .f32 := broadcastInDim S256 ![] bcast_S_S256 main_cst_0
  let main_v6 : IVec S256 1 := cmpf .olt main_v4 main_v5
  let main_c_1 : IVec S_ 1 := constantI S_ 1 1#1
  let main_v7 : IVec S_ 1 := (fun x v => Host.reduce IntOp.andi x v reducesTo_S256_S_d0 h_S_) main_v6 main_c_1
  let main_v8 : IVec S_ 1 := andi main_v3 main_v7
  let main_v9 : FVec F S4096 .f32 := Host.absf main_arg3
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S4096 .f32 := Host.absf main_arg4
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_v13 main_v16
-- ==== Kernel.lean ====
abbrev S4x2048x4096 : Shape := ⟨3, ![4, 2048, 4096]⟩
abbrev S256 : Shape := ⟨1, ![256]⟩
abbrev S16777216 : Shape := ⟨1, ![16777216]⟩
abbrev S4096 : Shape := ⟨1, ![4096]⟩
abbrev S_ : Shape := ⟨0, ![]⟩
abbrev S16777216x1 : Shape := ⟨2, ![16777216, 1]⟩
abbrev S4096x4096 : Shape := ⟨2, ![4096, 4096]⟩
abbrev S1x4096 : Shape := ⟨2, ![1, 4096]⟩
abbrev S8192x4096 : Shape := ⟨2, ![8192, 4096]⟩
abbrev S512x4096 : Shape := ⟨2, ![512, 4096]⟩
abbrev S512 : Shape := ⟨1, ![512]⟩
abbrev S512x512 : Shape := ⟨2, ![512, 512]⟩
abbrev S1x512 : Shape := ⟨2, ![1, 512]⟩

abbrev nBuf : Space → Nat
  | .hbm => 25
  | .vmem => 8
  | .smem => 0
  | _ => 0

abbrev bufTy : (tb : Table) → Fin (tcTables nBuf tb) → BufTy
  | .hbm, ⟨0, _⟩ => ⟨S4x2048x4096, .f32⟩
  | .hbm, ⟨1, _⟩ => ⟨S256, .f32⟩
  | .hbm, ⟨2, _⟩ => ⟨S16777216, .i32⟩
  | .hbm, ⟨3, _⟩ => ⟨S4096, .f32⟩
  | .hbm, ⟨4, _⟩ => ⟨S4096, .f32⟩
  | .hbm, ⟨5, _⟩ => ⟨S_, .i32⟩
  | .hbm, ⟨6, _⟩ => ⟨S16777216, .i32⟩
  | .hbm, ⟨7, _⟩ => ⟨S16777216, .i1⟩
  | .hbm, ⟨8, _⟩ => ⟨S_, .i32⟩
  | .hbm, ⟨9, _⟩ => ⟨S16777216, .i32⟩
  | .hbm, ⟨10, _⟩ => ⟨S16777216, .i32⟩
  | .hbm, ⟨11, _⟩ => ⟨S16777216, .i32⟩
  | .hbm, ⟨12, _⟩ => ⟨S16777216x1, .i32⟩
  | .hbm, ⟨13, _⟩ => ⟨S16777216, .f32⟩
  | .hbm, ⟨14, _⟩ => ⟨S4096x4096, .f32⟩
  | .hbm, ⟨15, _⟩ => ⟨S_, .f32⟩
  | .hbm, ⟨16, _⟩ => ⟨S4096, .f32⟩
  | .hbm, ⟨17, _⟩ => ⟨S4096, .f32⟩
  | .hbm, ⟨18, _⟩ => ⟨S1x4096, .f32⟩
  | .hbm, ⟨19, _⟩ => ⟨S4096x4096, .f32⟩
  | .hbm, ⟨20, _⟩ => ⟨S4096x4096, .f32⟩
  | .hbm, ⟨21, _⟩ => ⟨S4096x4096, .bf16⟩
  | .hbm, ⟨22, _⟩ => ⟨S8192x4096, .f32⟩
  | .hbm, ⟨23, _⟩ => ⟨S8192x4096, .f32⟩
  | .hbm, ⟨24, _⟩ => ⟨S4x2048x4096, .f32⟩
  | .local _ .vmem, ⟨0, _⟩ => ⟨S512x4096, .f32⟩
  | .local _ .vmem, ⟨1, _⟩ => ⟨S512x4096, .f32⟩
  | .local _ .vmem, ⟨2, _⟩ => ⟨S512x4096, .bf16⟩
  | .local _ .vmem, ⟨3, _⟩ => ⟨S512x4096, .bf16⟩
  | .local _ .vmem, ⟨4, _⟩ => ⟨S512, .f32⟩
  | .local _ .vmem, ⟨5, _⟩ => ⟨S512, .f32⟩
  | .local _ .vmem, ⟨6, _⟩ => ⟨S512x512, .f32⟩
  | .local _ .vmem, ⟨7, _⟩ => ⟨S512x512, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  ![arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  bcast_S_S16777216 : S_.BroadcastsInDim S16777216 (![] : Fin 0 → Fin S16777216.rank)
  bcast_S16777216_S16777216x1_0 : S16777216.BroadcastsInDim S16777216x1 (![0] : Fin 1 → Fin S16777216x1.rank)
  shapeCasts_S16777216_S4096x4096 : S16777216.ShapeCasts S4096x4096
  bcast_S_S4096 : S_.BroadcastsInDim S4096 (![] : Fin 0 → Fin S4096.rank)
  bcast_S4096_S1x4096_1 : S4096.BroadcastsInDim S1x4096 (![1] : Fin 1 → Fin S1x4096.rank)
  bcast_S1x4096_S4096x4096_0_1 : S1x4096.BroadcastsInDim S4096x4096 (![0, 1] : Fin 2 → Fin S4096x4096.rank)
  bitsLt_bf16_f32 : FTy.bits .bf16 < FTy.bits .f32
  shapeCasts_S4x2048x4096_S8192x4096 : S4x2048x4096.ShapeCasts S8192x4096
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S512_S512_0 : ∀ a, (![0] : Fin 1 → Nat) a + S512.size a ≤ S512.size a
  h_S512 : 0 < S512.numel
  shapeCasts_S512_S1x512 : S512.ShapeCasts S1x512
  broadcasts_S1x512_S512x512 : S1x512.Broadcasts S512x512
  inb_S512x512_S512x512_0_0 : ∀ a, (![0, 0] : Fin 2 → Nat) a + S512x512.size a ≤ S512x512.size a
  h_S512x512 : 0 < S512x512.numel
  shapeCasts_S8192x4096_S4x2048x4096 : S8192x4096.ShapeCasts S4x2048x4096
  gather_S256_S16777216x1_S16777216_n_0_n_n_0_1_1_wf : GatherDims.WF S256 S16777216x1 S16777216 [] [0] [] [0] [] 1 ![1]
  dot_S512x4096_S512x4096_S512x512_1_1_0_0_n_n_wf : DotDims.WF S512x4096 S512x4096 S512x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S8192x4096.size a
  hwx0_0 : ∀ i : grid0.Coords, EltTy.bits .f32 = 32 ∨ (Rect.block (s := S8192x4096) S512x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x4096.size a ≤ S4096x4096.size a
  hwx0_1 : ∀ i : grid0.Coords, EltTy.bits .bf16 = 32 ∨ (Rect.block (s := S4096x4096) S512x4096.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512.size a ≤ S4096.size a
  hwx0_2 : ∀ i : grid0.Coords, EltTy.bits .f32 = 32 ∨ (Rect.block (s := S4096) S512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S8192x4096.size a
  hwx0_3 : ∀ i : grid0.Coords, EltTy.bits .f32 = 32 ∨ (Rect.block (s := S8192x4096) S512x512.size (cc0_transform_3 i) (hinb0_3 i)).WholeWords (EltTy.packing .f32)

variable [Facts₀]

def gather_S256_S16777216x1_S16777216_n_0_n_n_0_1_1 : GatherDims S256 S16777216x1 S16777216 where
  offsetDims := []
  collapsedSliceDims := [0]
  operandBatchingDims := []
  startIndicesBatchingDims := []
  startIndexMap := [0]
  indexVectorDim := 1
  sliceSizes := ![1]
  wf := gather_S256_S16777216x1_S16777216_n_0_n_n_0_1_1_wf
def dot_S512x4096_S512x4096_S512x512_1_1_0_0_n_n : DotDims S512x4096 S512x4096 S512x512 where
  lhsContracting := [1]
  rhsContracting := [1]
  lhsNonContracting := [0]
  rhsNonContracting := [0]
  lhsBatch := []
  rhsBatch := []
  wf := dot_S512x4096_S512x4096_S512x512_1_1_0_0_n_n_wf

abbrev win0_0 : Pipeline.Window sig grid0 :=
  Pipeline.Window.ofSpec (Memref.whole main_v14) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S512x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v15) S512x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x2048x4096 : Shape := ⟨3, ![4, 2048, 4096]⟩
abbrev S256 : Shape := ⟨1, ![256]⟩
abbrev S16777216 : Shape := ⟨1, ![16777216]⟩
abbrev S4096 : Shape := ⟨1, ![4096]⟩
abbrev S_ : Shape := ⟨0, ![]⟩
abbrev S16777216x1 : Shape := ⟨2, ![16777216, 1]⟩
abbrev S4096x4096 : Shape := ⟨2, ![4096, 4096]⟩
abbrev S1x4096 : Shape := ⟨2, ![1, 4096]⟩
abbrev S1x1x4096 : Shape := ⟨3, ![1, 1, 4096]⟩

abbrev nBuf : Space → Nat
  | .hbm => 25
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S256, .f32⟩
  | .hbm, ⟨2, _⟩ => ⟨S16777216, .i32⟩
  | .hbm, ⟨3, _⟩ => ⟨S4096, .f32⟩
  | .hbm, ⟨4, _⟩ => ⟨S4096, .f32⟩
  | .hbm, ⟨5, _⟩ => ⟨S_, .i32⟩
  | .hbm, ⟨6, _⟩ => ⟨S16777216, .i32⟩
  | .hbm, ⟨7, _⟩ => ⟨S16777216, .i1⟩
  | .hbm, ⟨8, _⟩ => ⟨S_, .i32⟩
  | .hbm, ⟨9, _⟩ => ⟨S16777216, .i32⟩
  | .hbm, ⟨10, _⟩ => ⟨S16777216, .i32⟩
  | .hbm, ⟨11, _⟩ => ⟨S16777216, .i32⟩
  | .hbm, ⟨12, _⟩ => ⟨S16777216x1, .i32⟩
  | .hbm, ⟨13, _⟩ => ⟨S16777216, .f32⟩
  | .hbm, ⟨14, _⟩ => ⟨S4096x4096, .f32⟩
  | .hbm, ⟨15, _⟩ => ⟨S_, .f32⟩
  | .hbm, ⟨16, _⟩ => ⟨S4096, .f32⟩
  | .hbm, ⟨17, _⟩ => ⟨S4096, .f32⟩
  | .hbm, ⟨18, _⟩ => ⟨S1x4096, .f32⟩
  | .hbm, ⟨19, _⟩ => ⟨S4096x4096, .f32⟩
  | .hbm, ⟨20, _⟩ => ⟨S4096x4096, .f32⟩
  | .hbm, ⟨21, _⟩ => ⟨S4x2048x4096, .f32⟩
  | .hbm, ⟨22, _⟩ => ⟨S1x1x4096, .f32⟩
  | .hbm, ⟨23, _⟩ => ⟨S4x2048x4096, .f32⟩
  | .hbm, ⟨24, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩

abbrev nD : Nat := 1
abbrev τ : Topo := Topo.v7x

variable {F : FTy → Type} [FloatOps F]

class Facts₀ : Prop where
  bcast_S_S16777216 : S_.BroadcastsInDim S16777216 (![] : Fin 0 → Fin S16777216.rank)
  bcast_S16777216_S16777216x1_0 : S16777216.BroadcastsInDim S16777216x1 (![0] : Fin 1 → Fin S16777216x1.rank)
  shapeCasts_S16777216_S4096x4096 : S16777216.ShapeCasts S4096x4096
  bcast_S_S4096 : S_.BroadcastsInDim S4096 (![] : Fin 0 → Fin S4096.rank)
  bcast_S4096_S1x4096_1 : S4096.BroadcastsInDim S1x4096 (![1] : Fin 1 → Fin S1x4096.rank)
  bcast_S1x4096_S4096x4096_0_1 : S1x4096.BroadcastsInDim S4096x4096 (![0, 1] : Fin 2 → Fin S4096x4096.rank)
  bcast_S4096_S1x1x4096_2 : S4096.BroadcastsInDim S1x1x4096 (![2] : Fin 1 → Fin S1x1x4096.rank)
  bcast_S1x1x4096_S4x2048x4096_0_1_2 : S1x1x4096.BroadcastsInDim S4x2048x4096 (![0, 1, 2] : Fin 3 → Fin S4x2048x4096.rank)
  gather_S256_S16777216x1_S16777216_n_0_n_n_0_1_1_wf : GatherDims.WF S256 S16777216x1 S16777216 [] [0] [] [0] [] 1 ![1]
  dot_S4x2048x4096_S4096x4096_S4x2048x4096_2_1_01_0_n_n_wf : DotDims.WF S4x2048x4096 S4096x4096 S4x2048x4096 [2] [1] [0, 1] [0] [] []

variable [Facts₀]

def gather_S256_S16777216x1_S16777216_n_0_n_n_0_1_1 : GatherDims S256 S16777216x1 S16777216 where
  offsetDims := []
  collapsedSliceDims := [0]
  operandBatchingDims := []
  startIndicesBatchingDims := []
  startIndexMap := [0]
  indexVectorDim := 1
  sliceSizes := ![1]
  wf := gather_S256_S16777216x1_S16777216_n_0_n_n_0_1_1_wf
def dot_S4x2048x4096_S4096x4096_S4x2048x4096_2_1_01_0_n_n : DotDims S4x2048x4096 S4096x4096 S4x2048x4096 where
  lhsContracting := [2]
  rhsContracting := [1]
  lhsNonContracting := [0, 1]
  rhsNonContracting := [0]
  lhsBatch := []
  rhsBatch := []
  wf := dot_S4x2048x4096_S4096x4096_S4x2048x4096_2_1_01_0_n_n_wf

class Facts : Prop extends Facts₀ where

variable [Facts]
-- ==== Proof.BlockBody.lean ====
/-
  What the kernel body stores, read at one entry of its 512 × 512 output block.

  The body takes a 512 × 4096 block of activations, a 512 × 4096 block of weights and a 512-entry block of the bias. It
  multiplies the two matrix blocks contracting the LAST axis of both (so entry (r, c) pairs row r of the activation
  block with row c of the weight block), starting from a zero accumulator, and adds the bias block laid out as one row
  and repeated down the 512 rows. On extended reals the narrowing of the activations to a shorter float format is the
  identity, the zero accumulator contributes nothing, and the repeated bias row reads its entry c at every row. So
      body[r, c] = (Σ_k a[r, k] · w[c, k]) + bias[c].
-/
import proofs.«116249_j39779987096002_2_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.BlockValue

open Cert.KernelIdeal Cert.KernelIdeal.Gen Idealize.ShloMosaic Idealize.ShloMosaic.ValueIdx

/-- The contraction's dimension numbers: both operands are contracted on their axis 1; the result's axis 0 is the left
    operand's axis 0 and its axis 1 the right operand's axis 0. -/
abbrev dims := dot_S512x4096_S512x4096_S512x512_1_1_0_0_n_n

/-- The left operand of the product at result entry j and contraction index q is read at row j 0 … -/
theorem lhs_row (j : S512x512.Idx) (q : dims.contr.Idx) : (dims.lhsIdx j q 0).val = (j 0).val := by
  unfold DotDims.lhsIdx
  rw [dif_neg (show ¬(0 : Fin S512x4096.rank) ∈ dims.lhsBatch by decide),
    dif_pos (show (0 : Fin S512x4096.rank) ∈ dims.lhsNonContracting by decide)]
  rfl
/-- … and column q. -/
theorem lhs_col (j : S512x512.Idx) (q : dims.contr.Idx) : (dims.lhsIdx j q 1).val = (q ⟨0, by decide⟩).val :=
  dims.lhsIdx_val_of_single rfl j q
/-- The right operand is read at row j 1 … -/
theorem rhs_row (j : S512x512.Idx) (q : dims.contr.Idx) : (dims.rhsIdx j q 0).val = (j 1).val := by
  unfold DotDims.rhsIdx
  rw [dif_neg (show ¬(0 : Fin S512x4096.rank) ∈ dims.rhsBatch by decide),
    dif_pos (show (0 : Fin S512x4096.rank) ∈ dims.rhsNonContracting by decide)]
  rfl
/-- … and column q. -/
theorem rhs_col (j : S512x512.Idx) (q : dims.contr.Idx) : (dims.rhsIdx j q 1).val = (q ⟨0, by decide⟩).val :=
  dims.rhsIdx_val_of_single rfl j q

/-- The matrix product into a zero accumulator, at entry (r, c): the sum over the 4096 contracted positions of
    a[r, k] · w[c, k]. The contraction's one-axis index set is renamed to the numbers below 4096. -/
theorem product_at (a : FVec Ideal S512x4096 .bf16) (w : FVec Ideal S512x4096 .bf16) (r c : Fin 512) :
    matmul dims none a w (constant S512x512 .f32 0x00000000#32) (ix2 r c) = ∑ k : Fin 4096, a (ix2 r k) * w (ix2 c k) := by
  refine (Ideal.matmul_constant_zero_apply dims none a w (ix2 r c)).trans ?_
  rw [← Equiv.sum_comp (contrEquiv1 dims 4096 rfl rfl).symm]
  refine Finset.sum_congr rfl fun k _ => ?_
  have hk := contrEquiv1_symm_val dims 4096 rfl rfl k
  have el : dims.lhsIdx (ix2 r c) ((contrEquiv1 dims 4096 rfl rfl).symm k) = ix2 r k := funext fun x => Fin.ext (by
    match x with
    | ⟨0, _⟩ => exact lhs_row _ _
    | ⟨1, _⟩ => exact (lhs_col _ _).trans hk)
  have er : dims.rhsIdx (ix2 r c) ((contrEquiv1 dims 4096 rfl rfl).symm k) = ix2 c k := funext fun x => Fin.ext (by
    match x with
    | ⟨0, _⟩ => exact rhs_row _ _
    | ⟨1, _⟩ => exact (rhs_col _ _).trans hk)
  rw [el, er]

/-- The bias block laid out as one row and repeated down the rows reads bias[c] at every entry (r, c). -/
theorem bias_row_at (b : FVec Ideal S512 .f32) (r c : Fin 512) :
    broadcastTo S512x512 (shapeCast S1x512 b shapeCasts_S512_S1x512) broadcasts_S1x512_S512x512 (ix2 r c) = b (ix1 c) := by
  rw [broadcastTo_apply _ broadcasts_S1x512_S512x512 (ix2 r c) (ix2 (0 : Fin 1) c) (fun x => by
    match x with
    | ⟨0, _⟩ => rfl
    | ⟨1, _⟩ => rfl)]
  exact shapeCast_apply b shapeCasts_S512_S1x512 (ix2 (0 : Fin 1) c) (ix1 c) (by
    rw [Shape.rowMajor_val_one, Shape.rowMajor_val_two]
    show c.val = 0 * 512 + c.val
    omega)

/-- The body's stored value at entry (r, c) of the output block. -/
theorem body_at (a : FVec Ideal S512x4096 .f32) (w : FVec Ideal S512x4096 .bf16) (b : FVec Ideal S512 .f32) (r c : Fin 512) :
    k0_pay1 (F := Ideal) a w b (ix2 r c) = (∑ k : Fin 4096, a (ix2 r k) * w (ix2 c k)) + b (ix1 c) := by
  unfold k0_pay1
  rw [addf_apply, bias_row_at, shapeCast_self, shapeCast_self]
  refine congrArg (· + b (ix1 c)) ?_
  exact product_at (truncf .bf16 a bitsLt_bf16_f32) w r c

end Cert.KernelIdeal.BlockValue

end
-- ==== Proof.AffineSpec.lean ====
/-
  The function both programs compute, stated once over extended reals and literal shapes.

  Given activations x[b, s, k] (4 × 2048 × 4096), a weight matrix w[o, k] (4096 × 4096) and a bias b[o], the layer is
      out[b, s, o] = (Σ_k x[b, s, k] · w[o, k]) + b[o].
  The same layer with the batch and sequence axes merged into one axis of 8192 rows (row r = b · 2048 + s) is
      rows[r, o] = (Σ_k x'[r, k] · w[o, k]) + b[o].
  Merging the two leading axes row-major, applying the row form, and splitting the rows again gives the three-axis
  form: both reshapes only rename the index, and the sum over k is untouched. No property of the extended reals
  beyond equality of terms is used: the two sides are the same sum of the same products.
-/
import Idealize.ShloMosaic.PureOps.Ideal
import Idealize.ShloMosaic.Lib.ValueIdx
import Idealize.ShloMosaic.Lib.Pipeline.Value

noncomputable section

namespace Cert.Affine

open Idealize.ShloMosaic Idealize.ShloMosaic.ValueIdx

/-- Activations and results: batch × sequence × features. -/
abbrev SX : Shape := ⟨3, ![4, 2048, 4096]⟩
/-- The same with batch and sequence merged: rows × features. -/
abbrev SRows : Shape := ⟨2, ![8192, 4096]⟩
/-- The weight matrix: output features × input features. -/
abbrev SW : Shape := ⟨2, ![4096, 4096]⟩
/-- The bias: one entry per output feature. -/
abbrev SB : Shape := ⟨1, ![4096]⟩

/-- out[b, s, o] = (Σ_k x[b, s, k] · w[o, k]) + bias[o]. -/
def affine (x : SX.Idx → EReal) (w : SW.Idx → EReal) (b : SB.Idx → EReal) : SX.Idx → EReal :=
  fun i => (∑ k : Fin 4096, x (ix3 (i 0) (i 1) k) * w (ix2 (i 2) k)) + b (ix1 (i 2))

/-- rows[r, o] = (Σ_k x'[r, k] · w[o, k]) + bias[o]. -/
def affineRows (x : SRows.Idx → EReal) (w : SW.Idx → EReal) (b : SB.Idx → EReal) : SRows.Idx → EReal :=
  fun j => (∑ k : Fin 4096, x (ix2 (j 0) k) * w (ix2 (j 1) k)) + b (ix1 (j 1))

/-- The row form at an entry given by its coordinates. -/
theorem affineRows_apply (x : SRows.Idx → EReal) (w : SW.Idx → EReal) (b : SB.Idx → EReal) (R : Fin 8192) (C : Fin 4096) :
    affineRows x w b (ix2 R C) = (∑ k : Fin 4096, x (ix2 R k) * w (ix2 C k)) + b (ix1 C) := rfl

/-- The row of the merged array that holds (b, s): b · 2048 + s. -/
def rowOf (b : Fin 4) (s : Fin 2048) : Fin 8192 := ⟨b.val * 2048 + s.val, by omega⟩

/-- Splitting the rows of the row form applied to the merged activations gives the three-axis form: a row-major
    reshape reads the operand at the index with the same linear position, and position (b, s, o) of the 4 × 2048 × 4096
    array is position (b · 2048 + s, o) of the 8192 × 4096 one. -/
theorem split_affineRows_merge (x : SX.Idx → EReal) (w : SW.Idx → EReal) (b : SB.Idx → EReal)
    (hm : SX.ShapeCasts SRows) (hs : SRows.ShapeCasts SX) :
    shapeCast SX (affineRows (shapeCast SRows x hm) w b) hs = affine x w b := by
  funext i
  obtain ⟨p, q, o, rfl⟩ : ∃ (p : Fin 4) (q : Fin 2048) (o : Fin 4096), i = ix3 p q o := ⟨i 0, i 1, i 2, eq_ix3 i⟩
  rw [shapeCast_apply _ hs (ix3 p q o) (ix2 (rowOf p q) o) (by
    rw [Shape.rowMajor_val_two, Shape.rowMajor_val_three]
    show (p.val * 2048 + q.val) * 4096 + o.val = (p.val * 2048 + q.val) * 4096 + o.val
    rfl)]
  show (∑ k : Fin 4096, shapeCast SRows x hm (ix2 (rowOf p q) k) * w (ix2 o k)) + b (ix1 o)
     = (∑ k : Fin 4096, x (ix3 p q k) * w (ix2 o k)) + b (ix1 o)
  refine congrArg (· + b (ix1 o)) (Finset.sum_congr rfl fun k _ => ?_)
  rw [shapeCast_apply x hm (ix2 (rowOf p q) k) (ix3 p q k) (by
    rw [Shape.rowMajor_val_two, Shape.rowMajor_val_three]
    show (p.val * 2048 + q.val) * 4096 + k.val = (p.val * 2048 + q.val) * 4096 + k.val
    rfl)]

end Cert.Affine

end
-- ==== Proof.RegionValue.lean ====
/-
  What the kernel's one region leaves in its 8192 × 4096 result array: the row form of the layer (AffineSpec) applied
  to the three arrays the region reads, as the region finds them.

  The grid has 16 × 8 points. At point (p, q) the region reads rows 512p … 512p + 511 of the activation array (all 4096
  columns), rows 512q … 512q + 511 of the weight array (all 4096 columns) and entries 512q … 512q + 511 of the bias, and
  writes back the 512 × 512 block (p, q) of the result. By BlockBody, entry (r, c) of what it writes is
  (Σ_k act[512p + r, k] · wt[512q + c, k]) + bias[512q + c], which is entry (512p + r, 512q + c) of the row form. Every
  entry (R, C) of the result lies in exactly the block (R / 512, C / 512), and every such block is some point's, so
  the blocks cover the array and the array ends holding the row form everywhere.
-/
import proofs.«116249_j39779987096002_2_alg».proof.Proof.Gen.KernelIdeal.Frame
import proofs.«116249_j39779987096002_2_alg».proof.Proof.BlockBody
import proofs.«116249_j39779987096002_2_alg».proof.Proof.AffineSpec
import Idealize.ShloMosaic.Lib.Pipeline.Value

noncomputable section

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ)

theorem zero_offsets2 : (![0, 0] : Fin 2 → Nat) = fun _ => 0 := funext fun a => by fin_cases a <;> rfl
theorem zero_offsets1 : (![0] : Fin 1 → Nat) = fun _ => 0 := funext fun a => by fin_cases a <;> rfl

/-- The row form of the layer on the region's three input arrays as the region finds them. -/
abbrev rows (c : Dev nD) : S8192x4096.Idx → Elt Ideal .f32 :=
  Cert.Affine.affineRows (V m c main_v14) (V m c main_v13) (V m c main_arg4)

/-- Which block each window is on at a grid point, relative to the result's block (p, q): the activations are on row
    block p, the weights and the bias on block q, and both matrix inputs take all their columns. Decided over the 128
    points. -/
theorem block_indices : ∀ t : Fin cfg0.N,
    win0_0.index t (0 : Fin 2) = win0_3.index t (0 : Fin 2) ∧ win0_0.index t (1 : Fin 2) = 0
    ∧ win0_1.index t (0 : Fin 2) = win0_3.index t (1 : Fin 2) ∧ win0_1.index t (1 : Fin 2) = 0
    ∧ win0_2.index t (0 : Fin 1) = win0_3.index t (1 : Fin 2)
    ∧ win0_3.index t (0 : Fin 2) ≤ 15 ∧ win0_3.index t (1 : Fin 2) ≤ 7 :=
  (by decide +kernel : ∀ t : Fin grid0.N, _)

/-- Every block (p, q) of the result, p below 16 and q below 8, is some grid point's. -/
theorem block_onto : ∀ (p : Fin 16) (q : Fin 8), ∃ t : Fin cfg0.N, win0_3.index t = ![p.val, q.val] :=
  (by decide +kernel : ∀ (p : Fin 16) (q : Fin 8), ∃ t : Fin grid0.N, win0_3.index t = ![p.val, q.val])

/-- The activation block at a point: entry (r, k) is the activation array's entry (512p + r, k). -/
theorem act_block_at (c : Dev nD) (t : Fin cfg0.N) (r : Fin 512) (k : Fin 4096) (R : Fin 8192)
    (hR : R.val = win0_3.index t (0 : Fin 2) * 512 + r.val) :
    (iblk m c 0 t : Vec Ideal S512x4096 .f32) (ix2 r k) = (V m c main_v14 : S8192x4096.Idx → Elt Ideal .f32) (ix2 R k) := by
  obtain ⟨e0, e1, -⟩ := block_indices t
  unfold iblk
  rw [View.read_apply]
  show (V m c main_v14 : S8192x4096.Idx → Elt Ideal .f32) _ = _
  refine congrArg (V m c main_v14 : S8192x4096.Idx → Elt Ideal .f32) (funext fun a => Fin.ext ?_)
  match a with
  | ⟨0, _⟩ => show win0_0.index t (0 : Fin 2) * 512 + 1 * r.val = R.val; omega
  | ⟨1, _⟩ => show win0_0.index t (1 : Fin 2) * 4096 + 1 * k.val = k.val; omega

/-- The weight block at a point: entry (c', k) is the weight array's entry (512q + c', k). -/
theorem wt_block_at (c : Dev nD) (t : Fin cfg0.N) (c' : Fin 512) (k : Fin 4096) (C : Fin 4096)
    (hC : C.val = win0_3.index t (1 : Fin 2) * 512 + c'.val) :
    (iblk m c 1 t : Vec Ideal S512x4096 .bf16) (ix2 c' k) = (V m c main_v13 : S4096x4096.Idx → Elt Ideal .bf16) (ix2 C k) := by
  obtain ⟨-, -, e2, e3, -⟩ := block_indices t
  unfold iblk
  rw [View.read_apply]
  show (V m c main_v13 : S4096x4096.Idx → Elt Ideal .bf16) _ = _
  refine congrArg (V m c main_v13 : S4096x4096.Idx → Elt Ideal .bf16) (funext fun a => Fin.ext ?_)
  match a with
  | ⟨0, _⟩ => show win0_1.index t (0 : Fin 2) * 512 + 1 * c'.val = C.val; omega
  | ⟨1, _⟩ => show win0_1.index t (1 : Fin 2) * 4096 + 1 * k.val = k.val; omega

/-- The bias block at a point: entry c' is the bias entry 512q + c'. -/
theorem bias_block_at (c : Dev nD) (t : Fin cfg0.N) (c' : Fin 512) (C : Fin 4096)
    (hC : C.val = win0_3.index t (1 : Fin 2) * 512 + c'.val) :
    (iblk m c 2 t : Vec Ideal S512 .f32) (ix1 c') = (V m c main_arg4 : S4096.Idx → Elt Ideal .f32) (ix1 C) := by
  obtain ⟨-, -, -, -, e4, -⟩ := block_indices t
  unfold iblk
  rw [View.read_apply]
  show (V m c main_arg4 : S4096.Idx → Elt Ideal .f32) _ = _
  refine congrArg (V m c main_arg4 : S4096.Idx → Elt Ideal .f32) (funext fun a => Fin.ext ?_)
  match a with
  | ⟨0, _⟩ => show win0_2.index t (0 : Fin 1) * 512 + 1 * c'.val = C.val; omega

/-- What a point's body stores at entry j of its block is the row form at the array entry the block puts j on. -/
theorem body_is_rows (c : Dev nD) (t : Fin cfg0.N) (j : S512x512.Idx) (i : S8192x4096.Idx)
    (h0 : (i 0).val = win0_3.index t (0 : Fin 2) * 512 + (j 0).val)
    (h1 : (i 1).val = win0_3.index t (1 : Fin 2) * 512 + (j 1).val) :
    k0_pay1 (F := Ideal) (iblk m c 0 t) (iblk m c 1 t) (iblk m c 2 t) j = rows m c i := by
  obtain ⟨r, c', rfl⟩ : ∃ (r c' : Fin 512), j = ix2 r c' := ⟨j 0, j 1, eq_ix2 j⟩
  obtain ⟨R, C, rfl⟩ : ∃ (R : Fin 8192) (C : Fin 4096), i = ix2 R C := ⟨i 0, i 1, eq_ix2 i⟩
  refine (Cert.KernelIdeal.BlockValue.body_at (iblk m c 0 t) (iblk m c 1 t) (iblk m c 2 t) r c').trans ?_
  refine Eq.trans ?_ (Cert.Affine.affineRows_apply (V m c main_v14) (V m c main_v13) (V m c main_arg4) R C).symm
  exact congrArg₂ (fun (u v : EReal) => u + v)
    (Finset.sum_congr rfl fun k _ => congrArg₂ (fun (u v : EReal) => u * v)
      (act_block_at m c t r k R h0) (wt_block_at m c t c' k C h1))
    (bias_block_at m c t c' C h1)

/-- WHAT POINT t WRITES BACK is block t of the row form. -/
theorem flushed_eq (c : Dev nD) (t : Fin cfg0.N) :
    (dats m 0 c).flushed 3 t = ((cfg0.win 3).blk t).view.read (Elt Ideal) (rows m c) := by
  show (cfg0.win 3).cut (grid0.coords t) ((dats m 0 c).after 3 t) = _
  rw [after0_3]
  unfold out0_3
  rw [View.canon_unit_zero zero_offsets2]
  simp only [View.ld_unit_zero (S := S512x4096) zero_offsets2, View.ld_unit_zero (S := S512) zero_offsets1]
  funext j
  show k0_pay1 (F := Ideal) (iblk m c 0 t) (iblk m c 1 t) (iblk m c 2 t) j = rows m c (((cfg0.win 3).blk t).view.emb j)
  exact body_is_rows m c t j (((cfg0.win 3).blk t).view.emb j)
    (by show win0_3.index t (0 : Fin 2) * 512 + 1 * (j 0).val = win0_3.index t (0 : Fin 2) * 512 + (j 0).val; omega)
    (by show win0_3.index t (1 : Fin 2) * 512 + 1 * (j 1).val = win0_3.index t (1 : Fin 2) * 512 + (j 1).val; omega)

/-- An entry of the result array is in point t's block iff each coordinate is in the block's range on its axis. -/
theorem mem_block (t : Fin cfg0.N) (i : S8192x4096.Idx) :
    i ∈ ((cfg0.win 3).blk t).view.set ↔ ∀ a : Fin 2, win0_3.index t a * S512x512.size a ≤ (i a).val ∧ (i a).val < win0_3.index t a * S512x512.size a + S512x512.size a := by
  show i ∈ ((View.whole main_v15).slice (win0_3.rect t)).set ↔ _
  rw [View.set_slice_whole, Rect.mem_set_unit]
  exact Iff.rfl

/-- Every entry (R, C) of the result array is in the block of the point on block (R / 512, C / 512). -/
theorem covered (i : S8192x4096.Idx) :
    ∃ t : Fin cfg0.N, (cfg0.win 3).flush t = true ∧ i ∈ ((cfg0.win 3).blk t).view.set := by
  have hi0 : (i 0).val < 8192 := (i 0).isLt
  have hi1 : (i 1).val < 4096 := (i 1).isLt
  obtain ⟨t, ht⟩ := block_onto ⟨(i 0).val / 512, by omega⟩ ⟨(i 1).val / 512, by omega⟩
  have q0 : win0_3.index t (0 : Fin 2) = (i 0).val / 512 := congrFun ht 0
  have q1 : win0_3.index t (1 : Fin 2) = (i 1).val / 512 := congrFun ht 1
  refine ⟨t, flush0_3 t, ?_⟩
  rw [mem_block]
  intro a
  match a with
  | ⟨0, _⟩ => show win0_3.index t (0 : Fin 2) * 512 ≤ (i 0).val ∧ (i 0).val < win0_3.index t (0 : Fin 2) * 512 + 512; omega
  | ⟨1, _⟩ => show win0_3.index t (1 : Fin 2) * 512 ≤ (i 1).val ∧ (i 1).val < win0_3.index t (1 : Fin 2) * 512 + 512; omega

/-- THE RESULT ARRAY after the region is the row form of the layer on the region's input arrays. -/
theorem region_result (c : Dev nD) : (dats m 0 c).arrAt 3 cfg0.N = rows m c :=
  (dats m 0 c).arrAt_eq_of_cover 3 (rows m c) (fun t _ => flushed_eq m c t) covered

end Cert.KernelIdeal.RegionValue

end
-- ==== Proof.KernelValue.lean ====
/-
  The kernel program's result, as a function of its launch arrays: the layer of AffineSpec applied to the launch
  activations, to the weight matrix its host code builds before the region, and to the bias.

  Around the region the program does three things on the host. Before it: it builds the weight matrix (a table lookup by
  label, reshaped to 4096 × 4096 and divided column by column by the floored scale) and narrows it to a shorter float
  format, which on extended reals changes nothing; and it merges the activations' batch and sequence axes into 8192
  rows. After it: it splits the region's 8192 rows back into batch and sequence. The weight matrix is the very term
  the reference program builds for its own product, so it is named by the reference's weight stage and never opened.
  With RegionValue (the region leaves the row form of the layer) and AffineSpec (merge, row form, split is the layer)
  the result is the layer.
-/
import proofs.«116249_j39779987096002_2_alg».proof.Proof.RegionValue
import proofs.«116249_j39779987096002_2_alg».proof.Proof.Gen.ReferenceIdeal.Read
import Idealize.ShloMosaic.Lib.StableHlo.Run

noncomputable section

namespace Cert.KernelIdeal.ProgramValue

open Cert.KernelIdeal Cert.KernelIdeal.Gen Idealize.ShloMosaic Idealize.ShloMosaic.TcCoe Idealize.SL.Sem
open Idealize.ShloMosaic.StableHlo
open Idealize.ShloMosaic.Pipeline (Dat)

variable (m : (ℓ : Loc nD τ sig) → Buf (Elt Ideal) ℓ) (ρ : Dev nD → PrngReg)

/-- The weight matrix of the launch's codebook, labels and scale: the reference program's divide stage at them. -/
abbrev weights (c : Dev nD) : S4096x4096.Idx → Elt Ideal .f32 :=
  Cert.ReferenceIdeal.Read.val_main_v12 (F := Ideal) (m ((c.tc : Thread nD τ).loc main_arg1))
    (m ((c.tc : Thread nD τ).loc main_arg2)) (m ((c.tc : Thread nD τ).loc main_arg3))

/-- The layer at the launch arrays. -/
abbrev layer (c : Dev nD) : S4x2048x4096.Idx → Elt Ideal .f32 :=
  Cert.Affine.affine (m ((c.tc : Thread nD τ).loc main_arg0)) (weights m c) (m ((c.tc : Thread nD τ).loc main_arg4))

/-- The region finds the activations with their two leading axes merged. -/
theorem acts_found (c : Dev nD) : (V m c main_v14 : S8192x4096.Idx → Elt Ideal .f32)
    = shapeCast S8192x4096 (m ((c.tc : Thread nD τ).loc main_arg0)) shapeCasts_S4x2048x4096_S8192x4096 := by
  show StableHlo.after hostOps0 (fun b => m (c, b)) (Proc.devRef .tc main_v14) = _
  after_results
  rfl

/-- The region finds, as its weight array, the weight matrix: the host operations that build it are the reference's,
    one for one, and the final narrowing of the float format is the identity on extended reals. -/
theorem weights_found (c : Dev nD) : (V m c main_v13 : S4096x4096.Idx → Elt Ideal .bf16) = weights m c := by
  show StableHlo.after hostOps0 (fun b => m (c, b)) (Proc.devRef .tc main_v13) = _
  after_results
  rfl

/-- After the region the program's result is the region's result array with its rows split into batch and sequence. -/
theorem tail_splits_rows (c : Dev nD) : Pipeline.afterTail₀ cfgs (dats m) 0 (V0 m) [hostOps1] c main_v16
    = shapeCast S4x2048x4096 ((dats m 0 c).arrAt 3 cfg0.N) shapeCasts_S8192x4096_S4x2048x4096 := by
  unfold Pipeline.afterTail₀
  show StableHlo.after hostOps1 _ (Proc.devRef .tc main_v16) = _
  after_results
  have e : Pipeline.withArrays (cfgs 0).spec c (V0 m c) (fun w => (dats m 0 c).arrAt w (cfgs 0).N) (Proc.devRef .tc main_v15)
      = (dats m 0 c).arrAt 3 cfg0.N :=
    Pipeline.withArrays_arr spec0 launch0.win.arr_inj c (V0 m c) (fun w => (dats m 0 c).arrAt w cfg0.N) 3
  rw [e]
  rfl

/-- THE PROGRAM'S RESULT is the layer at the launch arrays. -/
theorem program_result (c : Dev nD) : Pipeline.afterTail₀ cfgs (dats m) 0 (V0 m) [hostOps1] c main_v16 = layer m c := by
  rw [tail_splits_rows, Cert.KernelIdeal.RegionValue.region_result]
  show shapeCast S4x2048x4096 (Cert.Affine.affineRows (V m c main_v14) (V m c main_v13) (V m c main_arg4)) _ = _
  rw [acts_found m c, weights_found m c, V_main_arg4 m c]
  exact Cert.Affine.split_affineRows_merge _ _ _ _ _

/-- The run, read: every weakly fair execution ends with the result at the layer and the five arguments unchanged. The
    result is read off the host lines after the region, four arguments off the buffers the region never stages, and the
    bias off the input window that stages it and never writes it back. -/
theorem run : θ_run defs (onTc (τ := τ) (main (F := Ideal))) ⟨m, fun _ => 0, ρ⟩ fun r => ∀ c : Dev nD,
      r.2.mem ((c.tc : Thread nD τ).loc main_v16) = layer m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v16 (Pipeline.mem_restRefs_of main_v16 (by decide) (by decide))).trans (program_result m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).1 2).trans (((dats m 0 c).arrAt_in 2 rfl _).trans ((A_eq m c 2).trans (V_main_arg4 m c)))⟩)
    (run_main m ρ)

end Cert.KernelIdeal.ProgramValue

end
-- ==== Proof.RefAffine.lean ====
/-
  The reference program's result, read one operation at a time, is the layer of AffineSpec applied to the launch
  activations, to the weight matrix the reference itself builds (its divide stage, kept as one opaque array: the
  table lookup by label and the per-column scale are never opened), and to the bias.

  The reference contracts the activations' last axis against the weights' last axis, giving out[b, s, o] directly,
  then adds the bias broadcast along the two leading axes. Read at an index (b, s, o): the contraction is the sum over
  k of x[b, s, k] · w[o, k], and the doubly broadcast bias reads b[o]. That is the layer's defining expression.
-/
import proofs.«116249_j39779987096002_2_alg».proof.Proof.Gen.ReferenceIdeal.Read
import proofs.«116249_j39779987096002_2_alg».proof.Proof.AffineSpec

noncomputable section

namespace Cert.ReferenceIdeal.RefValue

open Cert.ReferenceIdeal Cert.ReferenceIdeal.Read Idealize.ShloMosaic Idealize.ShloMosaic.ValueIdx

/-- The reference's last stage is the layer of its own weight stage: index by index both are
    (Σ_k x[b, s, k] · w[o, k]) + bias[o]. -/
theorem result_is_affine (x0 : (⟨S4x2048x4096, .f32⟩ : BufTy).Contents (Elt Ideal)) (x1 : (⟨S256, .f32⟩ : BufTy).Contents (Elt Ideal))
    (x2 : (⟨S16777216, .i32⟩ : BufTy).Contents (Elt Ideal)) (x3 x4 : (⟨S4096, .f32⟩ : BufTy).Contents (Elt Ideal)) :
    val_main_v16 (F := Ideal) x0 x1 x2 x3 x4 = Cert.Affine.affine x0 (val_main_v12 (F := Ideal) x1 x2 x3) x4 := by
  funext i
  rw [val_main_v16_apply, val_main_v13_apply, val_main_v15_apply, val_main_v14_apply]
  have el : ∀ k : Fin 4096, lidx_main_v13 i k = ix3 (i 0) (i 1) k := fun k => funext fun a => Fin.ext (by
    match a with | ⟨0, _⟩ => rfl | ⟨1, _⟩ => rfl | ⟨2, _⟩ => rfl)
  have er : ∀ k : Fin 4096, ridx_main_v13 i k = ix2 (i 2) k := fun k => funext fun a => Fin.ext (by
    match a with | ⟨0, _⟩ => rfl | ⟨1, _⟩ => rfl)
  have eb : idx_main_v14 (idx_main_v15 i) = ix1 (i 2) := funext fun a => Fin.ext (by
    match a with | ⟨0, _⟩ => rfl)
  simp only [el, er, eb]
  rfl

end Cert.ReferenceIdeal.RefValue

end
-- ==== Proof.lean ====
/-
  A linear layer whose weights are stored as a codebook: a table of 256 values, one label per weight (4096 × 4096 of
  them), and a per-input-feature scale. Both programs first rebuild the weight matrix
      w[o, i] = table[label[o · 4096 + i]] / max(scale[i], 1e-8)
  (a negative label counts from the table's end) and then compute, for activations x[b, s, i] and a bias,
      out[b, s, o] = (Σ_i x[b, s, i] · w[o, i]) + bias[o].

  The reference does the product as one contraction of the activations' last axis against the weights' last axis and
  adds the bias broadcast over batch and sequence. The kernel program merges batch and sequence into 8192 rows, cuts
  the rows into 16 blocks of 512 and the output features into 8 blocks of 512, and at each of the 16 × 8 grid points
  multiplies a 512 × 4096 block of activations with a 512 × 4096 block of weights over the WHOLE contracted axis, adds
  the bias block, and writes one 512 × 512 block of the result; afterwards it splits the rows into batch and sequence.

  On extended reals, with every float operation exact and a change of float format the identity, the two programs
  compute the same function term for term: the weight matrix is built by the same host operations in both (so it is
  carried as one array and never opened), each entry of the result is the same sum of the same 4096 products plus the
  same bias entry, and the blocks tile the result. No algebraic law beyond renaming indices is needed, so the inputs'
  finiteness is not used. The idealized kernel is the kernel's own text read at exact arithmetic (no rewrite was
  applied), so the idealization claim is trivial.

  Modules: AffineSpec (the layer, and that merging rows, applying the row form and splitting rows is the layer),
  RefAffine (the reference's result is the layer of its weight stage), BlockBody (one entry of what the kernel body
  stores), RegionValue (the region's result array is the row form), KernelValue (the kernel program's result is the
  layer, and its run). Here: the five claims.
-/
import proofs.«116249_j39779987096002_2_alg».proof.Defs
import proofs.«116249_j39779987096002_2_alg».proof.Proof.Gen.Kernel
import proofs.«116249_j39779987096002_2_alg».proof.Proof.Gen.Kernel.Skeleton
import proofs.«116249_j39779987096002_2_alg».proof.Proof.Gen.Kernel.Launch
import proofs.«116249_j39779987096002_2_alg».proof.Proof.Gen.Kernel.Points
import proofs.«116249_j39779987096002_2_alg».proof.Proof.Gen.Kernel.Frame
import proofs.«116249_j39779987096002_2_alg».proof.Proof.Gen.KernelIdeal
import proofs.«116249_j39779987096002_2_alg».proof.Proof.Gen.KernelIdeal.Skeleton
import proofs.«116249_j39779987096002_2_alg».proof.Proof.Gen.KernelIdeal.Launch
import proofs.«116249_j39779987096002_2_alg».proof.Proof.Gen.KernelIdeal.Points
import proofs.«116249_j39779987096002_2_alg».proof.Proof.Gen.KernelIdeal.Frame
import proofs.«116249_j39779987096002_2_alg».proof.Proof.Gen.ReferenceIdeal
import proofs.«116249_j39779987096002_2_alg».proof.Proof.Gen.Pre_finite_inputs
import proofs.«116249_j39779987096002_2_alg».proof.Proof.Gen.ReferenceIdeal.Run
import proofs.«116249_j39779987096002_2_alg».proof.Proof.Gen.ReferenceIdeal.Read
import Idealize.ShloMosaic.Adequacy
import Idealize.ShloMosaic.Init
import proofs.«116249_j39779987096002_2_alg».proof.Proof.KernelValue
import proofs.«116249_j39779987096002_2_alg».proof.Proof.RefAffine

noncomputable section

namespace Cert.Proof

open Idealize.ShloMosaic Idealize.SL.Sem

/-- The kernel program terminates without fault and leaves its arguments unchanged. -/
theorem frame_kernel : Cert.frame_Kernel := fun m ρ _ => Cert.Kernel.Gen.frame m ρ

/-- So does its reading at exact arithmetic. -/
theorem frame_kernelIdeal : Cert.frame_KernelIdeal := fun m ρ _ => Cert.KernelIdeal.Gen.frame m ρ

/-- The reference is host operations only: its run, with the result dropped, is its frame. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation of the kernel was rewritten for the exact reading: nothing to preserve. -/
theorem preserves : Cert.preserves_Kernel_KernelIdeal := trivial

/-- From memories that agree on the five arguments both programs end with the layer at those arguments: the kernel
    program by KernelValue, the reference by its run read as the layer of its own weight stage (RefAffine), which is
    the same array once the arguments are identified. -/
theorem algebraic : Cert.algebraic_KernelIdeal_ReferenceIdeal := by
  intro m ρ m' ρ' _ hagree
  refine ⟨fun c => Cert.KernelIdeal.ProgramValue.layer m c, Cert.KernelIdeal.ProgramValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v16_eq, Cert.ReferenceIdeal.RefValue.result_is_affine,
    (hagree c).1, (hagree c).2.1, (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
